-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S8192x4096 .f32) (main_arg2 : FVec F S8192x4096 .f32) (main_arg3 : FVec F S8192x4096 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_v13 main_v16
-- ==== Kernel.lean ====
abbrev S8192x4096 : Shape := ⟨2, ![8192, 4096]⟩
abbrev S4096 : Shape := ⟨1, ![4096]⟩
abbrev S1x4096 : Shape := ⟨2, ![1, 4096]⟩
abbrev S1024x512 : Shape := ⟨2, ![1024, 512]⟩
abbrev S1x512 : Shape := ⟨2, ![1, 512]⟩

abbrev nBuf : Space → Nat
  | .hbm => 10
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4096_S1x4096 : S4096.ShapeCasts S1x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  broadcasts_S1x512_S1024x512 : S1x512.Broadcasts S1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x4096.size a
  hwx0_1 : ∀ i : grid0.Coords, EltTy.bits .f32 = 32 ∨ (Rect.block (s := S8192x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x4096.size a
  hwx0_6 : ∀ i : grid0.Coords, EltTy.bits .f32 = 32 ∨ (Rect.block (s := S8192x4096) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x4096.size a
  hwx0_7 : ∀ i : grid0.Coords, EltTy.bits .f32 = 32 ∨ (Rect.block (s := S8192x4096) S1024x512.size (cc0_transform_7 i) (hinb0_7 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096 : Shape := ⟨1, ![4096]⟩
abbrev S_ : Shape := ⟨0, ![]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .i1⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.Recurrence.lean ====
/-
  One step of a diagonal state-space recurrence on the extended reals: the update that both programs of this
  certificate compute, written once, and the scalar identities that bring each program's spelling of it to this form.

  For a decay logit `a`, a step-size logit `d`, a previous state `p`, an input gate `b` and an input `v`,
      step a d p b v = σ(a) · p + softplus(d) · (b · v),
  with `σ(a) = 1 / (1 + e^(-a))` the logistic function and `softplus(d) = max d 0 + log1p (e^(-|d|))`, the overflow-free
  form of `log (1 + e^d)` (`|d|` is `max d (-d)` on the extended reals). The arrays: the state is [8192, 4096], the two
  logits are [4096] and are shared by all 8192 rows, so entry (r, k) of the new state is `step` of the logits at `k`
  and of the three big arrays at (r, k); the readout is the fourth big array times the new state, entry by entry.

  No law of this file needs a finite operand: the two programs apply the same operations in the same order, and differ only
  in how they spell a negation (`0 - x` against `-x`), the logistic function (one operation against its expansion) and
  the comparison that guards softplus against a NaN (false of every extended real in either spelling).
-/
import Idealize.ShloMosaic.PureOps.Ideal
import Idealize.ShloMosaic.PureOps.Ideal.Laws
import Idealize.ShloMosaic.Lib.ValueIdx

noncomputable section

namespace Cert.Recurrence

open Idealize.ShloMosaic Idealize.ShloMosaic.ValueIdx

/-- `softplus d = max d 0 + log1p (e^(-|d|))`: at a real `d` this is `log (1 + e^d)`. -/
def softplus (d : EReal) : EReal := max d 0 + Ideal.log1p (Ideal.exp (-(max d (-d))))

/-- One entry of the new state: the previous entry decayed by `σ(a)`, plus the gated input scaled by `softplus d`. -/
def step (a d p b v : EReal) : EReal := Ideal.logistic a * p + softplus d * (b * v)

/-- The new state, entry by entry: row `r`, column `k` uses the two logits at `k`. -/
def newState (prev b v : (⟨2, ![8192, 4096]⟩ : Shape).Idx → EReal) (a d : (⟨1, ![4096]⟩ : Shape).Idx → EReal) :
    (⟨2, ![8192, 4096]⟩ : Shape).Idx → EReal :=
  fun i => step (a (ix1 (i 1))) (d (ix1 (i 1))) (prev i) (b i) (v i)

/-- The readout: the output gate times the new state, entry by entry. -/
def readout (prev b v g : (⟨2, ![8192, 4096]⟩ : Shape).Idx → EReal) (a d : (⟨1, ![4096]⟩ : Shape).Idx → EReal) :
    (⟨2, ![8192, 4096]⟩ : Shape).Idx → EReal :=
  fun i => g i * newState prev b v a d i

/-- The f32 pattern of `1.0` is the extended real `1`. -/
theorem ofBits_one_f32 : Ideal.ofBits .f32 0x3F800000#32 = 1 := by
  simp [Ideal.ofBits, Ideal.ieee, -EReal.coe_mul]; norm_num

/-- Comparing an extended real with itself for "not equal" is false, so a select on it takes its second branch. -/
theorem select_ne_self {α : Type} (p : CmpFPredicate) (hp : p = .one ∨ p = .une) (x : EReal) (u w : α) :
    Scalar.select (Ideal.cmp p x x) u w = w := by
  rcases hp with rfl | rfl <;> simp [Scalar.select, Ideal.cmp]

/-- softplus as the vector unit spells it: the guard `x ≠ x` of `x = d - 0` is false, and `0 - |d - 0|` is `-|d|`. -/
theorem softplus_of_sub (d : Ideal .f32) :
    Scalar.select (FloatOps.cmpf .one (FloatOps.subf d (Scalar.ofBits .f32 0x00000000#32)) (FloatOps.subf d (Scalar.ofBits .f32 0x00000000#32)))
        (FloatOps.addf d (Scalar.ofBits .f32 0x00000000#32))
        (FloatOps.addf (FloatOps.maximumf d (Scalar.ofBits .f32 0x00000000#32))
          (FloatOps.log1p (FloatOps.exp (FloatOps.subf (Scalar.ofBits .f32 0x00000000#32) (FloatOps.absf (FloatOps.subf d (Scalar.ofBits .f32 0x00000000#32)))))))
      = softplus d := by
  have hs : Scalar.ofBits (F := Ideal) .f32 0x00000000#32 = (0 : EReal) := Ideal.ofBits_zero_f32
  rw [hs, Ideal.cmpf_def, select_ne_self _ (Or.inl rfl)]
  simp only [Ideal.subf_def, Ideal.addf_def, Ideal.maximumf_def, Ideal.log1p_def, Ideal.exp_def, Ideal.absf_def, sub_zero, zero_sub]
  rfl

/-- softplus as the host spells it: the same guard with the unordered comparison, and a negation of `|d - 0|`. -/
theorem softplus_of_neg (d : Ideal .f32) :
    Scalar.select (FloatOps.cmpf .une (FloatOps.subf d (FloatOps.ofBits .f32 0x00000000#32)) (FloatOps.subf d (FloatOps.ofBits .f32 0x00000000#32)))
        (FloatOps.addf d (FloatOps.ofBits .f32 0x00000000#32))
        (FloatOps.addf (FloatOps.maximumf d (FloatOps.ofBits .f32 0x00000000#32))
          (FloatOps.hostUnary .log1p (FloatOps.hostUnary .exp (FloatOps.hostNegf (FloatOps.hostAbsf (FloatOps.subf d (FloatOps.ofBits .f32 0x00000000#32)))))))
      = softplus d := by
  have hs : FloatOps.ofBits (F := Ideal) .f32 0x00000000#32 = (0 : EReal) := Ideal.ofBits_zero_f32
  rw [hs, Ideal.cmpf_def, select_ne_self _ (Or.inr rfl)]
  simp only [Ideal.subf_def, Ideal.addf_def, Ideal.maximumf_def, Ideal.hostUnary_log1p_def, Ideal.hostUnary_exp_def,
    Ideal.hostNegf_def, Ideal.hostAbsf_def, Ideal.negf_def, Ideal.absf_def, sub_zero]
  rfl

/-- The logistic function as the host expands it, `1 / (1 + e^(-a))` with the literal `1.0`, is the one operation. -/
theorem logistic_of_div (a : Ideal .f32) :
    FloatOps.hostDivf (FloatOps.ofBits .f32 0x3F800000#32)
        (FloatOps.addf (FloatOps.ofBits .f32 0x3F800000#32) (FloatOps.hostUnary .exp (FloatOps.hostNegf a)))
      = Ideal.logistic a := by
  have hs : FloatOps.ofBits (F := Ideal) .f32 0x3F800000#32 = (1 : EReal) := ofBits_one_f32
  rw [hs]
  rfl

end Cert.Recurrence

end
-- ==== Proof.ReferenceEntries.lean ====
/-
  The reference program's two results, read entry by entry, are the recurrence step and its readout.

  The reference computes the decay `σ(a)` as `1 / (1 + e^(-a))` and the step size by its softplus subroutine, both on
  the [4096] logits, lays each out as a row [1, 4096], repeats the row down the 8192 rows, and then combines the big arrays
  entry by entry: `σ(a) · prev + softplus(d) · (b · v)`, and that times the output gate. Entry (r, k) therefore reads
  the two logits at `k` and the big arrays at (r, k).
-/
import proofs.«157677_j73632919322669_2_alg».proof.Proof.Gen.ReferenceIdeal.Read
import proofs.«157677_j73632919322669_2_alg».proof.Proof.Recurrence

noncomputable section

namespace Cert.ReferenceIdeal.Entries

open Cert.ReferenceIdeal Cert.ReferenceIdeal.Read Idealize.ShloMosaic Idealize.ShloMosaic.ValueIdx Cert.Recurrence

/-- The reference's decay vector at `k` is the logistic function of the decay logit at `k`. -/
theorem decay_at (x4 : S4096.Idx → EReal) (k : S4096.Idx) : val_main_v5 (F := Ideal) x4 k = Ideal.logistic (x4 k) := by
  rw [val_main_v5_apply, val_main_v4_apply, val_main_cst_0_apply, val_main_v3_apply, val_main_v2_apply, val_main_cst_apply,
    val_main_v1_apply, val_main_v0_apply]
  exact logistic_of_div (x4 k)

/-- The reference's step-size vector at `k` is softplus of the step-size logit at `k`. -/
theorem stepSize_at (x5 : S4096.Idx → EReal) (k : S4096.Idx) : val_main_v7 (F := Ideal) x5 k = softplus (x5 k) := by
  rw [val_main_v7_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply]
  exact softplus_of_neg (x5 k)

/-- The reference's first result is the new state. -/
theorem newState_eq (x0 x1 x2 : S8192x4096.Idx → EReal) (x4 x5 : S4096.Idx → EReal) :
    val_main_v14 (F := Ideal) x0 x1 x2 x4 x5 = newState x0 x1 x2 x4 x5 := by
  funext i
  have e : idx_main_v6 (idx_main_v9 i) = ix1 (i 1) := funext fun a => match a with | ⟨0, _⟩ => rfl
  have e' : idx_main_v8 (idx_main_v12 i) = ix1 (i 1) := funext fun a => match a with | ⟨0, _⟩ => rfl
  rw [val_main_v14_apply, val_main_v10_apply, val_main_v9_apply, val_main_v6_apply, decay_at, val_main_v13_apply,
    val_main_v12_apply, val_main_v8_apply, stepSize_at, val_main_v11_apply, e, e']
  rfl

/-- The reference's second result is the readout. -/
theorem readout_eq (x0 x1 x2 x3 : S8192x4096.Idx → EReal) (x4 x5 : S4096.Idx → EReal) :
    val_main_v15 (F := Ideal) x0 x1 x2 x3 x4 x5 = readout x0 x1 x2 x3 x4 x5 := by
  funext i
  rw [val_main_v15_apply, newState_eq]
  rfl

end Cert.ReferenceIdeal.Entries

end
-- ==== Proof.KernelPoint.lean ====
/-
  What one grid point of the kernel leaves in its two output blocks, entry by entry.

  A grid point holds a [1024, 512] block of each big array and the matching [1, 512] piece of each logit row. The body
  applies the logistic function and softplus to the two row pieces, repeats each down the 1024 rows of the block, and
  combines the blocks entry by entry. So entry (r, k) of the first output block is the recurrence step of the row
  pieces at (0, k) and of the three input blocks at (r, k); entry (r, k) of the second is the output-gate block there times
  the first.
-/
import proofs.«157677_j73632919322669_2_alg».proof.Proof.Gen.KernelIdeal.Value
import proofs.«157677_j73632919322669_2_alg».proof.Proof.Recurrence

noncomputable section

namespace Cert.KernelIdeal.Point

open Cert.KernelIdeal Cert.KernelIdeal.Gen Idealize.ShloMosaic Idealize.ShloMosaic.TcCoe Idealize.ShloMosaic.ValueIdx Cert.Recurrence

theorem zero_offsets : (![0, 0] : Fin 2 → Nat) = fun _ => 0 := funext fun a => by fin_cases a <;> rfl

/-- The entry of a [1, 512] row piece that lies over entry `j` of a [1024, 512] block: row 0, column `j 1`. -/
abbrev over (j : S1024x512.Idx) : S1x512.Idx := ix2 (0 : Fin 1) (j 1)

/-- Entry `j` of the new-state block: the step of the row pieces over `j` and of the three input blocks at `j`. -/
theorem state_entry (x0 x1 x2 x3 : Vec Ideal S1024x512 .f32) (x4 x5 : Vec Ideal S1x512 .f32) (j : S1024x512.Idx) :
    out0_6 x0 x1 x2 x3 x4 x5 j = step (x4 (over j)) (x5 (over j)) (x0 j) (x1 j) (x2 j) := by
  unfold out0_6
  simp only [View.ld_unit_zero (S := S1024x512) zero_offsets, View.ld_unit_zero (S := S1x512) zero_offsets]
  refine (Value.canon6_eq _ _ _ _ _ j).trans ?_
  have e0 : Value.ix6_0 j = over j := funext fun a => match a with | ⟨0, _⟩ => rfl | ⟨1, _⟩ => rfl
  have e1 : Value.ix6_1 j = j := funext fun a => match a with | ⟨0, _⟩ => rfl | ⟨1, _⟩ => rfl
  have e2 : Value.ix6_2 j = over j := funext fun a => match a with | ⟨0, _⟩ => rfl | ⟨1, _⟩ => rfl
  have e3 : Value.ix6_3 j = over j := funext fun a => match a with | ⟨0, _⟩ => rfl | ⟨1, _⟩ => rfl
  have e4 : Value.ix6_4 j = over j := funext fun a => match a with | ⟨0, _⟩ => rfl | ⟨1, _⟩ => rfl
  have e5 : Value.ix6_5 j = over j := funext fun a => match a with | ⟨0, _⟩ => rfl | ⟨1, _⟩ => rfl
  have e6 : Value.ix6_6 j = over j := funext fun a => match a with | ⟨0, _⟩ => rfl | ⟨1, _⟩ => rfl
  have e7 : Value.ix6_7 j = j := funext fun a => match a with | ⟨0, _⟩ => rfl | ⟨1, _⟩ => rfl
  have e8 : Value.ix6_8 j = j := funext fun a => match a with | ⟨0, _⟩ => rfl | ⟨1, _⟩ => rfl
  dsimp only [Value.E6]
  rw [e0, e1, e2, e3, e4, e5, e6, e7, e8, softplus_of_sub]
  rfl

/-- Entry `j` of the readout block: the output-gate block at `j` times the new-state entry. -/
theorem readout_entry (x0 x1 x2 x3 : Vec Ideal S1024x512 .f32) (x4 x5 : Vec Ideal S1x512 .f32) (j : S1024x512.Idx) :
    out0_7 x0 x1 x2 x3 x4 x5 j = x3 j * step (x4 (over j)) (x5 (over j)) (x0 j) (x1 j) (x2 j) := by
  unfold out0_7
  simp only [View.ld_unit_zero (S := S1024x512) zero_offsets, View.ld_unit_zero (S := S1x512) zero_offsets]
  refine (Value.canon7_eq _ _ _ _ _ _ j).trans ?_
  have e0 : Value.ix7_0 j = j := funext fun a => match a with | ⟨0, _⟩ => rfl | ⟨1, _⟩ => rfl
  have e1 : Value.ix7_1 j = over j := funext fun a => match a with | ⟨0, _⟩ => rfl | ⟨1, _⟩ => rfl
  have e2 : Value.ix7_2 j = j := funext fun a => match a with | ⟨0, _⟩ => rfl | ⟨1, _⟩ => rfl
  have e3 : Value.ix7_3 j = over j := funext fun a => match a with | ⟨0, _⟩ => rfl | ⟨1, _⟩ => rfl
  have e4 : Value.ix7_4 j = over j := funext fun a => match a with | ⟨0, _⟩ => rfl | ⟨1, _⟩ => rfl
  have e5 : Value.ix7_5 j = over j := funext fun a => match a with | ⟨0, _⟩ => rfl | ⟨1, _⟩ => rfl
  have e6 : Value.ix7_6 j = over j := funext fun a => match a with | ⟨0, _⟩ => rfl | ⟨1, _⟩ => rfl
  have e7 : Value.ix7_7 j = over j := funext fun a => match a with | ⟨0, _⟩ => rfl | ⟨1, _⟩ => rfl
  have e8 : Value.ix7_8 j = j := funext fun a => match a with | ⟨0, _⟩ => rfl | ⟨1, _⟩ => rfl
  have e9 : Value.ix7_9 j = j := funext fun a => match a with | ⟨0, _⟩ => rfl | ⟨1, _⟩ => rfl
  dsimp only [Value.E7]
  rw [e0, e1, e2, e3, e4, e5, e6, e7, e8, e9, softplus_of_sub]
  rfl

end Cert.KernelIdeal.Point

end
-- ==== Proof.KernelArrays.lean ====
/-
  From blocks to arrays: after the kernel has run, its two result arrays hold the new state and the readout.

  The grid has 8 × 8 points. Point `t` works on block (p, q) of every big array — rows 1024·p … 1024·p + 1023, columns
  512·q … 512·q + 511 — and on piece q of each logit row, columns 512·q … 512·q + 511 of a [1, 4096] array that is the
  [4096] logit vector laid out as one row. So the entry of a row piece over block entry (r, k) is the logit at column
  512·q + k, the column of the array entry that block entry is; with the entry-by-entry reading of the body this makes what
  point `t` writes back block `t` of the whole-array function. The 64 blocks tile [8192, 4096] (array entry (R, K) is
  in block (R / 1024, K / 512)), so each result array ends as that function everywhere.
-/
import proofs.«157677_j73632919322669_2_alg».proof.Proof.Gen.KernelIdeal.Value
import proofs.«157677_j73632919322669_2_alg».proof.Proof.Recurrence
import proofs.«157677_j73632919322669_2_alg».proof.Proof.KernelPoint
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Cert.Recurrence Cert.KernelIdeal.Point
open Idealize.ShloMosaic.Pipeline (Dat)

variable (m : (ℓ : Loc nD τ sig) → Buf (Elt Ideal) ℓ) (ρ : Dev nD → PrngReg)

/-! ## The logit rows the region finds -/

/-- The decay-logit row as the region finds it: entry (0, k) is the decay logit at `k`. -/
theorem decay_row (c : Dev nD) (k : S1x4096.Idx) :
    (V m c main_v0 : S1x4096.Idx → EReal) k = (m ((c : Thread nD τ).loc main_arg4) : S4096.Idx → EReal) (ix1 (k 1)) := by
  have e : (V m c main_v0 : S1x4096.Idx → EReal)
      = shapeCast S1x4096 (m ((c : Thread nD τ).loc main_arg4) : S4096.Idx → EReal) shapeCasts_S4096_S1x4096 := by
    dsimp only [V, hostOps0]; after_results; rfl
  rw [e, shapeCast_addUnit_apply]
  exact congrArg _ (funext fun a => match a with | ⟨0, _⟩ => rfl)

/-- The step-size-logit row as the region finds it: entry (0, k) is the step-size logit at `k`. -/
theorem stepSize_row (c : Dev nD) (k : S1x4096.Idx) :
    (V m c main_v1 : S1x4096.Idx → EReal) k = (m ((c : Thread nD τ).loc main_arg5) : S4096.Idx → EReal) (ix1 (k 1)) := by
  have e : (V m c main_v1 : S1x4096.Idx → EReal)
      = shapeCast S1x4096 (m ((c : Thread nD τ).loc main_arg5) : S4096.Idx → EReal) shapeCasts_S4096_S1x4096 := by
    dsimp only [V, hostOps0]; after_results; rfl
  rw [e, shapeCast_addUnit_apply]
  exact congrArg _ (funext fun a => match a with | ⟨0, _⟩ => rfl)

/-! ## Which block each window holds at a point -/

/-- At every point the four big input windows and the second output window hold the block the first output window holds,
    the two row windows hold the piece at that block's column index, and the block indices are at most 7 (decided over
    the 64 points). -/
theorem same_block : ∀ t : Fin cfg0.N,
    win0_0.index t (0 : Fin 2) = win0_6.index t (0 : Fin 2) ∧ win0_0.index t (1 : Fin 2) = win0_6.index t (1 : Fin 2)
    ∧ win0_1.index t (0 : Fin 2) = win0_6.index t (0 : Fin 2) ∧ win0_1.index t (1 : Fin 2) = win0_6.index t (1 : Fin 2)
    ∧ win0_2.index t (0 : Fin 2) = win0_6.index t (0 : Fin 2) ∧ win0_2.index t (1 : Fin 2) = win0_6.index t (1 : Fin 2)
    ∧ win0_3.index t (0 : Fin 2) = win0_6.index t (0 : Fin 2) ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_7.index t (0 : Fin 2) = win0_6.index t (0 : Fin 2) ∧ win0_7.index t (1 : Fin 2) = win0_6.index t (1 : Fin 2)
    ∧ win0_6.index t (0 : Fin 2) ≤ 7 ∧ win0_6.index t (1 : Fin 2) ≤ 7 :=
  (by decide +kernel : ∀ t : Fin grid0.N, _)

/-- Every block (p, q) of the 8 × 8 tiling is some point's. -/
theorem every_block : ∀ (p q : Fin 8), ∃ t : Fin cfg0.N, win0_6.index t = ![p.val, q.val] :=
  (by decide +kernel : ∀ (p q : Fin 8), ∃ t : Fin grid0.N, win0_6.index t = ![p.val, q.val])

/-- The array entry that entry `j` of point `t`'s output block is. -/
abbrev entryOf (t : Fin cfg0.N) (j : S1024x512.Idx) : S8192x4096.Idx := ((cfg0.win 6).blk t).view.emb j

/-- Entry `j` of a big input window's block at point `t` is the window's array at `entryOf t j`: stated for a window
    whose block index at `t` is the output's. -/
theorem big_entry (c : Dev nD) (t : Fin cfg0.N) (j : S1024x512.Idx) (A : S8192x4096.Idx → EReal) (i0 i1 : Nat)
    (h0 : i0 = win0_6.index t (0 : Fin 2)) (h1 : i1 = win0_6.index t (1 : Fin 2)) (x : S8192x4096.Idx)
    (hx0 : (x 0).val = i0 * 1024 + 1 * (j 0).val) (hx1 : (x 1).val = i1 * 512 + 1 * (j 1).val) :
    A x = A (entryOf t j) := by
  refine congrArg A (funext fun a => Fin.ext ?_)
  match a with
  | ⟨0, _⟩ => show (x 0).val = win0_6.index t (0 : Fin 2) * 1024 + 1 * (j 0).val; omega
  | ⟨1, _⟩ => show (x 1).val = win0_6.index t (1 : Fin 2) * 512 + 1 * (j 1).val; omega

/-- What point `t`'s input blocks hold at (or, for the two row pieces, over) block entry `j`: the argument arrays at
    the array entry `j` is, the two logit vectors at its column. -/
theorem inputs_at (c : Dev nD) (t : Fin cfg0.N) (j : S1024x512.Idx) :
    (iblk m c 0 t : Vec Ideal S1024x512 .f32) j = m ((c : Thread nD τ).loc main_arg0) (entryOf t j)
    ∧ (iblk m c 1 t : Vec Ideal S1024x512 .f32) j = m ((c : Thread nD τ).loc main_arg1) (entryOf t j)
    ∧ (iblk m c 2 t : Vec Ideal S1024x512 .f32) j = m ((c : Thread nD τ).loc main_arg2) (entryOf t j)
    ∧ (iblk m c 3 t : Vec Ideal S1024x512 .f32) j = m ((c : Thread nD τ).loc main_arg3) (entryOf t j)
    ∧ (iblk m c 4 t : Vec Ideal S1x512 .f32) (over j) = m ((c : Thread nD τ).loc main_arg4) (ix1 (entryOf t j 1))
    ∧ (iblk m c 5 t : Vec Ideal S1x512 .f32) (over j) = m ((c : Thread nD τ).loc main_arg5) (ix1 (entryOf t j 1)) := by
  obtain ⟨a0, a1, b0, b1, c0, c1, d0, d1, r0, r1, s0, s1, o0, o1, l0, l1⟩ := same_block t
  refine ⟨?_, ?_, ?_, ?_, ?_, ?_⟩
  · show V m c main_arg0 (((cfg0.win 0).blk t).view.emb j) = _
    rw [V_main_arg0]
    exact big_entry c t j _ _ _ a0 a1 _ rfl rfl
  · show V m c main_arg1 (((cfg0.win 1).blk t).view.emb j) = _
    rw [V_main_arg1]
    exact big_entry c t j _ _ _ b0 b1 _ rfl rfl
  · show V m c main_arg2 (((cfg0.win 2).blk t).view.emb j) = _
    rw [V_main_arg2]
    exact big_entry c t j _ _ _ c0 c1 _ rfl rfl
  · show V m c main_arg3 (((cfg0.win 3).blk t).view.emb j) = _
    rw [V_main_arg3]
    exact big_entry c t j _ _ _ d0 d1 _ rfl rfl
  · show V m c main_v0 (((cfg0.win 4).blk t).view.emb (over j)) = _
    rw [decay_row]
    refine congrArg _ (congrArg ix1 (Fin.ext ?_))
    show win0_4.index t (1 : Fin 2) * 512 + 1 * (j 1).val = win0_6.index t (1 : Fin 2) * 512 + 1 * (j 1).val
    omega
  · show V m c main_v1 (((cfg0.win 5).blk t).view.emb (over j)) = _
    rw [stepSize_row]
    refine congrArg _ (congrArg ix1 (Fin.ext ?_))
    show win0_5.index t (1 : Fin 2) * 512 + 1 * (j 1).val = win0_6.index t (1 : Fin 2) * 512 + 1 * (j 1).val
    omega

/-! ## What a point writes back -/

/-- Point `t` writes back, to the first result array, block `t` of the new state of the argument arrays. -/
theorem flushed_state (c : Dev nD) (t : Fin cfg0.N) :
    (dats m 0 c).flushed 6 t = ((cfg0.win 6).blk t).view.read (Elt Ideal)
      (newState (m ((c : Thread nD τ).loc main_arg0)) (m ((c : Thread nD τ).loc main_arg1)) (m ((c : Thread nD τ).loc main_arg2))
        (m ((c : Thread nD τ).loc main_arg4)) (m ((c : Thread nD τ).loc main_arg5))) := by
  rw [Value.flushed6]
  funext j
  show out0_6 (iblk m c 0 t) (iblk m c 1 t) (iblk m c 2 t) (iblk m c 3 t) (iblk m c 4 t) (iblk m c 5 t) j
    = newState _ _ _ _ _ (entryOf t j)
  refine (state_entry _ _ _ _ _ _ j).trans ?_
  obtain ⟨hp, hb, hv, -, ha, hd⟩ := inputs_at m c t j
  rw [hp, hb, hv, ha, hd]
  rfl

/-- Point `t` writes back, to the second result array, block `t` of the readout of the argument arrays: the second
    output window holds the same block as the first. -/
theorem flushed_readout (c : Dev nD) (t : Fin cfg0.N) :
    (dats m 0 c).flushed 7 t = ((cfg0.win 7).blk t).view.read (Elt Ideal)
      (readout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed7]
  funext j
  obtain ⟨a0, a1, b0, b1, c0, c1, d0, d1, r0, r1, s0, s1, o0, o1, l0, l1⟩ := same_block t
  have he : ((cfg0.win 7).blk t).view.emb j = entryOf t j := by
    funext a; apply Fin.ext
    match a with
    | ⟨0, _⟩ => show win0_7.index t (0 : Fin 2) * 1024 + 1 * (j 0).val = win0_6.index t (0 : Fin 2) * 1024 + 1 * (j 0).val; omega
    | ⟨1, _⟩ => show win0_7.index t (1 : Fin 2) * 512 + 1 * (j 1).val = win0_6.index t (1 : Fin 2) * 512 + 1 * (j 1).val; omega
  show out0_7 (iblk m c 0 t) (iblk m c 1 t) (iblk m c 2 t) (iblk m c 3 t) (iblk m c 4 t) (iblk m c 5 t) j
    = readout _ _ _ _ _ _ (((cfg0.win 7).blk t).view.emb j)
  rw [he]
  refine (readout_entry _ _ _ _ _ _ j).trans ?_
  obtain ⟨hp, hb, hv, hg, ha, hd⟩ := inputs_at m c t j
  rw [hp, hb, hv, hg, ha, hd]
  rfl

/-! ## The blocks tile the arrays -/

/-- An array entry is in point `t`'s block of the first result iff each coordinate is in the block's range. -/
theorem mem_block6 (t : Fin cfg0.N) (i : S8192x4096.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v2_0).slice (win0_6.rect t)).set ↔ _
  rw [View.set_slice_whole, Rect.mem_set_unit]
  exact Iff.rfl

/-- The same for the second result. -/
theorem mem_block7 (t : Fin cfg0.N) (i : S8192x4096.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v2_1).slice (win0_7.rect t)).set ↔ _
  rw [View.set_slice_whole, Rect.mem_set_unit]
  exact Iff.rfl

/-- Array entry (R, K) is in the block of the point that holds block (R / 1024, K / 512). -/
theorem covered6 (i : S8192x4096.Idx) : ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ := every_block ⟨(i 0).val / 1024, by omega⟩ ⟨(i 1).val / 512, by omega⟩
  have q0 : win0_6.index t (0 : Fin 2) = (i 0).val / 1024 := congrFun ht 0
  have q1 : win0_6.index t (1 : Fin 2) = (i 1).val / 512 := congrFun ht 1
  refine ⟨t, flush0_6 t, ?_⟩
  rw [mem_block6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- The same for the second result, whose window holds the same blocks. -/
theorem covered7 (i : S8192x4096.Idx) : ∃ t : Fin cfg0.N, (cfg0.win 7).flush t = true ∧ i ∈ ((cfg0.win 7).blk t).view.set := by
  have hi0 : (i 0).val < 8192 := (i 0).isLt
  have hi1 : (i 1).val < 4096 := (i 1).isLt
  obtain ⟨t, ht⟩ := every_block ⟨(i 0).val / 1024, by omega⟩ ⟨(i 1).val / 512, by omega⟩
  have q0 : win0_6.index t (0 : Fin 2) = (i 0).val / 1024 := congrFun ht 0
  have q1 : win0_6.index t (1 : Fin 2) = (i 1).val / 512 := congrFun ht 1
  obtain ⟨a0, a1, b0, b1, c0, c1, d0, d1, r0, r1, s0, s1, o0, o1, l0, l1⟩ := same_block t
  refine ⟨t, flush0_7 t, ?_⟩
  rw [mem_block7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

/-! ## The arrays after the run -/

/-- The first result array ends as the new state of the argument arrays. -/
theorem final_state (c : Dev nD) : (dats m 0 c).arrAt 6 cfg0.N
    = newState (m ((c : Thread nD τ).loc main_arg0)) (m ((c : Thread nD τ).loc main_arg1)) (m ((c : Thread nD τ).loc main_arg2))
        (m ((c : Thread nD τ).loc main_arg4)) (m ((c : Thread nD τ).loc main_arg5)) :=
  (dats m 0 c).arrAt_eq_of_cover 6 _ (fun t _ => flushed_state m c t) covered6

/-- The second result array ends as the readout of the argument arrays. -/
theorem final_readout (c : Dev nD) : (dats m 0 c).arrAt 7 cfg0.N
    = readout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 7 _ (fun t _ => flushed_readout m c t) covered7

/-- The kernel's run: every weakly fair execution terminates with the two result arrays at the new state and the readout of
    the argument arrays, and the argument arrays unchanged. -/
theorem run : θ_run defs (onTc (τ := τ) (main (F := Ideal))) ⟨m, fun _ => 0, ρ⟩ fun r => ∀ c : Dev nD,
      r.2.mem ((c : Thread nD τ).loc main_v2_0)
        = newState (m ((c : Thread nD τ).loc main_arg0)) (m ((c : Thread nD τ).loc main_arg1)) (m ((c : Thread nD τ).loc main_arg2))
            (m ((c : Thread nD τ).loc main_arg4)) (m ((c : Thread nD τ).loc main_arg5))
      ∧ r.2.mem ((c : Thread nD τ).loc main_v2_1)
        = readout (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_state m c), (h c).2.1.trans (final_readout m c), (h c).2.2⟩)
    (Value.run_blocks m ρ)

end Cert.KernelIdeal.Arrays

end
-- ==== Proof.lean ====
/-
  One step of a diagonal state-space recurrence, tiled on a grid, against the same step written on whole arrays.

  Both programs take a previous state `prev`, an input gate `b`, an input `v` and an output gate `g`, all [8192, 4096], and
  two logit vectors `a`, `d` of length 4096, and return
      newState (r, k) = σ(a k) · prev (r, k) + softplus(d k) · (b (r, k) · v (r, k)),      readout (r, k) = g (r, k) · newState (r, k),
  with `σ` the logistic function and `softplus d = max d 0 + log1p (e^(-|d|))` (Proof/Recurrence.lean). The kernel lays the
  logits out as rows [1, 4096] and computes block (p, q) of both results at one of 8 × 8 grid points from block (p, q) of
  the big arrays and piece q of the rows; the reference computes the two [4096] vectors once and repeats them down the rows.
  On the extended reals the two are the same operations in the same order at every entry — they differ only in how a
  negation, the logistic function and a never-true guard are spelt — so the results agree at every input, finite or not:
  the precondition is not used.

  The modules: Proof/Recurrence.lean (the step, and the scalar identities between the two spellings),
  Proof/ReferenceEntries.lean (the reference's results entry by entry), Proof/KernelPoint.lean (what one grid point leaves
  in its output blocks), Proof/KernelArrays.lean (the blocks tile the arrays: the kernel's run), and here the claims. The
  kernel's frame, its run block by block and the reference's run are the generated modules'. The idealization rewrote no
  operation, so the word-level kernel's idealization claim is trivial.
-/
import proofs.«157677_j73632919322669_2_alg».proof.Defs
import proofs.«157677_j73632919322669_2_alg».proof.Proof.Gen.Kernel
import proofs.«157677_j73632919322669_2_alg».proof.Proof.Gen.Kernel.Frame
import proofs.«157677_j73632919322669_2_alg».proof.Proof.Gen.KernelIdeal
import proofs.«157677_j73632919322669_2_alg».proof.Proof.Gen.KernelIdeal.Frame
import proofs.«157677_j73632919322669_2_alg».proof.Proof.Gen.KernelIdeal.Value
import proofs.«157677_j73632919322669_2_alg».proof.Proof.Gen.ReferenceIdeal
import proofs.«157677_j73632919322669_2_alg».proof.Proof.Gen.ReferenceIdeal.Run
import proofs.«157677_j73632919322669_2_alg».proof.Proof.Gen.ReferenceIdeal.Read
import proofs.«157677_j73632919322669_2_alg».proof.Proof.Gen.Pre_finite_inputs
import proofs.«157677_j73632919322669_2_alg».proof.Proof.Recurrence
import proofs.«157677_j73632919322669_2_alg».proof.Proof.ReferenceEntries
import proofs.«157677_j73632919322669_2_alg».proof.Proof.KernelArrays
import Idealize.ShloMosaic.Adequacy
import Idealize.ShloMosaic.Init

noncomputable section

namespace Cert.Proof

open Idealize.ShloMosaic Idealize.ShloMosaic.TcCoe Idealize.SL.Sem Cert.Recurrence

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten when the kernel was read on the extended reals. -/
theorem preserves : Cert.preserves_Kernel_KernelIdeal := trivial

/-- From memories that agree on the arguments both programs end with the new state and the readout of those arguments. -/
theorem algebraic : Cert.algebraic_KernelIdeal_ReferenceIdeal := by
  intro m ρ m' ρ' _ hagree
  refine ⟨fun c => newState (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg4))
        (m ((c : Thread Cert.KernelIdeal.nD Cert.KernelIdeal.τ).loc Cert.KernelIdeal.main_arg5)),
    fun c => readout (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5)),
    Cert.KernelIdeal.Arrays.run m ρ, ?_⟩
  refine (θ_run Cert.ReferenceIdeal.defs _ _).mono (fun _ h c => ?_) (Cert.ReferenceIdeal.Value.run (F := Ideal) m' ρ')
  obtain ⟨hstate, hreadout, hargs⟩ := h c
  obtain ⟨g0, g1, g2, g3, g4, g5⟩ := hagree c
  refine ⟨hstate.trans ?_, hreadout.trans ?_, hargs⟩
  · rw [Cert.ReferenceIdeal.Read.val_main_v14_eq, Cert.ReferenceIdeal.Entries.newState_eq, g0, g1, g2, g4, g5]
  · rw [Cert.ReferenceIdeal.Read.val_main_v15_eq, Cert.ReferenceIdeal.Entries.readout_eq, g0, g1, g2, g3, g4, g5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
